-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S4096x8192 : Shape := ⟨2, ![4096, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S4096x512, .bf16⟩
  | .hbm, ⟨12, _⟩ => ⟨S8192x512, .bf16⟩
  | .hbm, ⟨13, _⟩ => ⟨S4096x8192, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x512_p1_0_S512x512 : S512x512.Transposes [1, 0] S512x512
  broadcasts_S2048x1_S2048x512 : S2048x1.Broadcasts S2048x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x8192.size a
  hwx0_4 : ∀ i : grid0.Coords, EltTy.bits .f32 = 32 ∨ (Rect.block (s := S4096x8192) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S512x8192 : Shape := ⟨2, ![512, 8192]⟩
abbrev S4096x8192 : Shape := ⟨2, ![4096, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S512x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  transposes_S8192x1_S1x8192_1_0 : S8192x1.Transposes [1, 0] S1x8192
  transposes_S8192x512_S512x8192_1_0 : S8192x512.Transposes [1, 0] S512x8192
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  dot_S4096x512_S512x8192_S4096x8192_1_0_0_1_n_n_wf : DotDims.WF S4096x512 S512x8192 S4096x8192 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf

class Facts : Prop extends Facts₀ where

variable [Facts]
-- ==== Proof.LibInverseRoot.lean ====
/-
  The reciprocal square root against the quotient of one by the square root, on the extended reals.

  For a non-negative extended real `s` — zero and `+∞` included — the reciprocal square root of `s` is the
  quotient of `1` by the square root of `s`:
    * `s = 0`: the root is `0`, and a positive number divided by zero is `+∞`, the reciprocal root's value at `0`;
    * `s = +∞`: the root is `+∞`, whose inverse is `0`, the reciprocal root's value at `+∞`;
    * `0 < s < +∞`: the root is a positive real, and `1 · (√s)⁻¹ = (√s)⁻¹`.
  Below zero the two differ (the quotient by the junk root is `0`, the reciprocal root is the junk value), so the
  hypothesis `0 ≤ s` is needed; a maximum with zero supplies it.
  Also: the `f32` pattern of `1.0` denotes `1`.
-/
import Idealize.ShloMosaic.PureOps.Ideal
import Idealize.ShloMosaic.PureOps.IdealRules

namespace InverseRoot

open Idealize.ShloMosaic

/-- The `f32` pattern `0x3F800000` denotes the extended real `1`. -/
theorem ofBits_one_f32 : Ideal.ofBits .f32 0x3F800000#32 = 1 :=
  IdealRules.sign_bit.ideal_onePat .f32

/-- On a non-negative extended real the reciprocal square root is one divided by the square root. -/
theorem rsqrt_eq_one_div_sqrt {s : EReal} (h : 0 ≤ s) : Ideal.rsqrt s = Ideal.div 1 (Ideal.sqrt s) := by
  induction s using EReal.rec with
  | bot => exact absurd h (by simp)
  | top =>
    rw [Ideal.rsqrt_top, Ideal.sqrt_top, Ideal.div, if_neg (by simp), EReal.inv_top, mul_zero]
  | coe r =>
    have hr : 0 ≤ r := by exact_mod_cast h
    rw [Ideal.rsqrt_coe, Ideal.sqrt_coe, if_neg (not_lt.mpr hr), if_neg (not_lt.mpr hr)]
    by_cases h0 : r = 0
    · subst h0
      rw [if_pos rfl, Real.sqrt_zero, Ideal.div, if_pos (by simp), if_pos (by simp)]
    · have hpos : 0 < Real.sqrt r := Real.sqrt_pos.mpr (lt_of_le_of_ne hr (Ne.symm h0))
      rw [if_neg h0, Ideal.div, if_neg (by exact_mod_cast hpos.ne'), one_mul, EReal.coe_inv]

/-- The same with the `f32` pattern of `1.0` as the numerator, as a host program prints it. -/
theorem rsqrt_eq_ofBits_one_div_sqrt {s : EReal} (h : 0 ≤ s) :
    Ideal.rsqrt s = Ideal.div (Ideal.ofBits .f32 0x3F800000#32) (Ideal.sqrt s) := by
  rw [ofBits_one_f32]; exact rsqrt_eq_one_div_sqrt h

end InverseRoot
-- ==== Proof.Similarity.lean ====
/-
  The inverse-distance similarity of two families of rows, entry by entry, on the extended reals.

  For `x` of 4096 rows and `y` of 8192 rows, each of 512 coordinates, the entry `(p, q)` is
      min ( rsqrt ( max ( (|x_p|² + |y_q|²) - 2 · ⟨x_p, y_q⟩ , 0 ) ) , 10⁶ )
  where `|x_p|²` is the sum of the squares of row `p` added onto the zero a sum starts from, and `⟨x_p, y_q⟩` the
  sum over the 512 coordinates of the products. The constants stay the `f32` patterns both programs print
  (`0.0`, `2.0`, `10⁶`); nothing below depends on their values except that the pattern of `0.0` denotes `0`,
  which makes the clamped squared distance non-negative.
-/
import Idealize.ShloMosaic.PureOps.Ideal.Laws
import Idealize.ShloMosaic.Lib.ValueIdx

noncomputable section

namespace Similarity

open Idealize.ShloMosaic Idealize.ShloMosaic.ValueIdx

/-- The squared length of row `p` of a matrix with 512 columns: the sum of the squares, from the zero a sum starts at. -/
def sqNorm {n : ℕ} (x : (⟨2, ![n, 512]⟩ : Shape).Idx → EReal) (p : Fin n) : EReal :=
  Ideal.ofBits .f32 0x00000000#32 + ∑ k : Fin 512, x (ix2 p k) * x (ix2 p k)

/-- The inner product of row `p` of `x` with row `q` of `y`. -/
def inner {n n' : ℕ} (x : (⟨2, ![n, 512]⟩ : Shape).Idx → EReal) (y : (⟨2, ![n', 512]⟩ : Shape).Idx → EReal)
    (p : Fin n) (q : Fin n') : EReal :=
  ∑ k : Fin 512, x (ix2 p k) * y (ix2 q k)

/-- The squared distance of the two rows by the expanded form, clamped below at zero. -/
def sqDist {n n' : ℕ} (x : (⟨2, ![n, 512]⟩ : Shape).Idx → EReal) (y : (⟨2, ![n', 512]⟩ : Shape).Idx → EReal)
    (p : Fin n) (q : Fin n') : EReal :=
  max ((sqNorm x p + sqNorm y q) - Ideal.ofBits .f32 0x40000000#32 * inner x y p q) (Ideal.ofBits .f32 0x00000000#32)

/-- The clamped squared distance is never negative: it is a maximum with zero. -/
theorem sqDist_nonneg {n n' : ℕ} (x : (⟨2, ![n, 512]⟩ : Shape).Idx → EReal) (y : (⟨2, ![n', 512]⟩ : Shape).Idx → EReal)
    (p : Fin n) (q : Fin n') : 0 ≤ sqDist x y p q := by
  unfold sqDist
  rw [Ideal.ofBits_zero_f32]
  exact le_max_right _ _

/-- The similarity of rows `p` and `q`: the reciprocal of the distance, capped at `10⁶`. -/
def sim {n n' : ℕ} (x : (⟨2, ![n, 512]⟩ : Shape).Idx → EReal) (y : (⟨2, ![n', 512]⟩ : Shape).Idx → EReal)
    (p : Fin n) (q : Fin n') : EReal :=
  min (Ideal.rsqrt (sqDist x y p q)) (Ideal.ofBits .f32 0x49742400#32)

/-- The whole table of similarities, as one function of the two matrices. -/
def table (x : (⟨2, ![4096, 512]⟩ : Shape).Idx → EReal) (y : (⟨2, ![8192, 512]⟩ : Shape).Idx → EReal) :
    (⟨2, ![4096, 8192]⟩ : Shape).Idx → EReal :=
  fun i => sim x y (i 0) (i 1)

end Similarity

end
-- ==== Proof.ReferenceEntry.lean ====
/-
  The reference's result, entry by entry, is the table of similarities.

  The host program forms the two columns of squared row lengths (a sum over the 512 coordinates from zero, kept as a
  column, the second one transposed into a row), the full matrix of inner products (one contraction of `x` with the
  transpose of `y`), combines them as `(|x_p|² + |y_q|²) - 2·⟨x_p, y_q⟩`, clamps at zero, takes the square root, divides
  `1` by it and caps the quotient at `10⁶`. Read at the entry `(p, q)` every layout step only renames an index: the
  row-length column read at `(p, 0)` is the sum over row `p`; the transposed one read at `(0, q)` is the sum over row
  `q`; the transposed `y` read at `(k, q)` is `y (q, k)`. What is left differs from the table's entry only in the
  last step — one divided by the root, against the reciprocal root — and those agree on a non-negative argument.
-/
import proofs.«160311_j49246095016270_2_alg».proof.Proof.Gen.ReferenceIdeal.Read
import proofs.«160311_j49246095016270_2_alg».proof.Proof.LibInverseRoot
import proofs.«160311_j49246095016270_2_alg».proof.Proof.Similarity

noncomputable section

namespace Cert.ReferenceIdeal.RefValue

open Cert.ReferenceIdeal Cert.ReferenceIdeal.Gen Cert.ReferenceIdeal.Read
open Idealize.ShloMosaic Idealize.ShloMosaic.ValueIdx

/-- The squared-length column of `x`, broadcast over the table and read at `(p, q)`, sums over row `p`. -/
theorem row_idx (p : Fin 4096) (q : Fin 8192) (k : Fin 512) :
    idx_main_v1 (idx_main_v2 (idx_main_v9 (ix2 p q))) k = ix2 p k :=
  funext fun a => Fin.ext (by match a with | ⟨0, _⟩ => rfl | ⟨1, _⟩ => rfl)

/-- The squared-length column of `y`, transposed into a row, broadcast and read at `(p, q)`, sums over row `q`. -/
theorem col_idx (p : Fin 4096) (q : Fin 8192) (k : Fin 512) :
    idx_main_v4 (idx_main_v5 (idx_main_v6 (idx_main_v10 (ix2 p q)))) k = ix2 q k :=
  funext fun a => Fin.ext (by match a with | ⟨0, _⟩ => rfl | ⟨1, _⟩ => rfl)

/-- The contraction's left factor at `(p, q)` and coordinate `k` is `x (p, k)`. -/
theorem left_idx (p : Fin 4096) (q : Fin 8192) (k : Fin 512) : lidx_main_v8 (ix2 p q) k = ix2 p k :=
  funext fun a => Fin.ext (by match a with | ⟨0, _⟩ => rfl | ⟨1, _⟩ => rfl)

/-- Its right factor is the transposed `y` at `(k, q)`, that is `y (q, k)`. -/
theorem right_idx (p : Fin 4096) (q : Fin 8192) (k : Fin 512) :
    idx_main_v7 (ridx_main_v8 (ix2 p q) k) = ix2 q k :=
  funext fun a => Fin.ext (by match a with | ⟨0, _⟩ => rfl | ⟨1, _⟩ => rfl)

/-- The squared-length column of `x` read at `(P, 0)` sums over row `P`. -/
theorem col_read_idx (P : Fin 4096) (k : Fin 512) : idx_main_v1 (idx_main_v2 (ix2 P (0 : Fin 1))) k = ix2 P k :=
  funext fun a => Fin.ext (by match a with | ⟨0, _⟩ => rfl | ⟨1, _⟩ => rfl)

/-- The squared-length row of `y` read at `(0, Q)` sums over row `Q`. -/
theorem row_read_idx (Q : Fin 8192) (k : Fin 512) :
    idx_main_v4 (idx_main_v5 (idx_main_v6 (ix2 (0 : Fin 1) Q))) k = ix2 Q k :=
  funext fun a => Fin.ext (by match a with | ⟨0, _⟩ => rfl | ⟨1, _⟩ => rfl)

/-- The column of squared row lengths of `x` (a sum over the coordinates from zero, kept as a column), at row `P`. -/
theorem sqNorm_col (x0 : (⟨S4096x512, .f32⟩ : BufTy).Contents (Elt Ideal)) (P : Fin 4096) :
    val_main_v2 (F := Ideal) x0 (ix2 P (0 : Fin 1)) = Similarity.sqNorm x0 P := by
  unfold Similarity.sqNorm
  rw [val_main_v2_apply, val_main_v1_apply, val_main_cst_apply]
  simp only [val_main_v0_apply, col_read_idx, Ideal.ofBits_def, Ideal.mulf_def]

/-- The row of squared row lengths of `y` (the same column, transposed), at column `Q`. -/
theorem sqNorm_row (x1 : (⟨S8192x512, .f32⟩ : BufTy).Contents (Elt Ideal)) (Q : Fin 8192) :
    val_main_v6 (F := Ideal) x1 (ix2 (0 : Fin 1) Q) = Similarity.sqNorm x1 Q := by
  unfold Similarity.sqNorm
  rw [val_main_v6_apply, val_main_v5_apply, val_main_v4_apply, val_main_cst_0_apply]
  simp only [val_main_v3_apply, row_read_idx, Ideal.ofBits_def, Ideal.mulf_def]

/-- The reference's last stage is the table of similarities of its two arguments. -/
theorem result_eq (x0 : (⟨S4096x512, .f32⟩ : BufTy).Contents (Elt Ideal)) (x1 : (⟨S8192x512, .f32⟩ : BufTy).Contents (Elt Ideal)) :
    val_main_v21 (F := Ideal) x0 x1 = Similarity.table x0 x1 := by
  funext i
  obtain ⟨p, q, rfl⟩ : ∃ (p : Fin 4096) (q : Fin 8192), i = ix2 p q := ⟨i 0, i 1, eq_ix2 i⟩
  show _ = Similarity.sim x0 x1 p q
  unfold Similarity.sim
  rw [InverseRoot.rsqrt_eq_ofBits_one_div_sqrt (Similarity.sqDist_nonneg x0 x1 p q)]
  unfold Similarity.sqDist Similarity.sqNorm Similarity.inner
  rw [val_main_v21_apply, val_main_v19_apply, val_main_v20_apply, val_main_cst_4_apply, val_main_v18_apply,
    val_main_cst_3_apply, val_main_v17_apply, val_main_v16_apply, val_main_v15_apply, val_main_cst_2_apply,
    val_main_v14_apply, val_main_v13_apply, val_main_v12_apply, val_main_cst_1_apply, val_main_v8_apply,
    val_main_v11_apply, val_main_v9_apply, val_main_v2_apply, val_main_v1_apply, val_main_cst_apply,
    val_main_v10_apply, val_main_v6_apply, val_main_v5_apply, val_main_v4_apply, val_main_cst_0_apply]
  simp only [val_main_v0_apply, val_main_v3_apply, val_main_v7_apply, row_idx, col_idx, left_idx, right_idx,
    Ideal.ofBits_def, Ideal.addf_def, Ideal.subf_def, Ideal.mulf_def, Ideal.maximumf_def, Ideal.minimumf_def,
    Ideal.hostDivf_def, Ideal.hostUnary_sqrt_def]

end Cert.ReferenceIdeal.RefValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«160311_j49246095016270_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.TileEntry.lean ====
/-
  One tile of the kernel's body, read at an entry.

  At a grid point the body holds a block of 2048 rows of `x`, a block of 512 rows of `y`, the 2048 squared lengths of
  those rows of `x` as a column and the 512 squared lengths of those rows of `y` as a row. It transposes the block of
  `y`, multiplies on the matrix unit into a zero accumulator — so entry `(p, q)` of the product is the sum over the 512
  coordinates of `x (p, k) · y (q, k)` —, spreads the column along the rows and the row down the columns, and applies
  the pointwise chain: sum of the two lengths, minus twice the product, clamped at zero, reciprocal root, capped.
-/
import proofs.«160311_j49246095016270_2_alg».proof.Proof.Gen.KernelIdeal.Skeleton
import proofs.«160311_j49246095016270_2_alg».proof.Proof.LibDotRecord
import proofs.«160311_j49246095016270_2_alg».proof.Proof.LibRowOps
import proofs.«160311_j49246095016270_2_alg».proof.Proof.Similarity
import Idealize.ShloMosaic.Lib.Pipeline.Value
import Idealize.ShloMosaic.Lib.ValueIdx

noncomputable section

namespace Cert.KernelIdeal.Tile

open Cert.KernelIdeal Cert.KernelIdeal.Gen
open Idealize.ShloMosaic Idealize.ShloMosaic.ValueIdx

/-- A square block transposed reads, at `(k, q)`, the block at `(q, k)`. -/
theorem transpose_apply_kq {α : Type} (v : S512x512.Idx → α) (h : S512x512.Transposes [1, 0] S512x512) (k q : Fin 512) :
    transpose S512x512 [1, 0] v h (ix2 k q) = v (ix2 q k) :=
  transpose_apply [1, 0] v h (ix2 k q) (ix2 q k) (fun b => match b with
    | ⟨0, _⟩ => rfl
    | ⟨1, _⟩ => rfl)

/-- The body's matrix product contracts the left block's columns with the right block's rows and has no batch axis:
    its printed record is the plain product's. -/
theorem record_eq_plain : dot_S2048x512_S512x512_S2048x512_1_0_0_1_n_n = DotDims.plain 2048 512 512 :=
  DotRecord.eq_plain (M := 2048) (K := 512) (N := 512) dot_S2048x512_S512x512_S2048x512_1_0_0_1_n_n rfl rfl rfl rfl rfl rfl

/-- The product of the block of `x` with the transposed block of `y`, accumulated into zero, at `(p, q)`: the inner
    product of row `p` of the one with row `q` of the other. -/
theorem product_apply (v0 : FVec Ideal S2048x512 .bf16) (v2 : FVec Ideal S512x512 .bf16) (p : Fin 2048) (q : Fin 512) :
    matmul dot_S2048x512_S512x512_S2048x512_1_0_0_1_n_n none v0
        (transpose S512x512 [1, 0] v2 transposes_S512x512_p1_0_S512x512) (constant S2048x512 .f32 0x00000000#32) (ix2 p q)
      = ∑ k : Fin 512, v0 (ix2 p k) * v2 (ix2 q k) := by
  rw [record_eq_plain]
  refine (Gcn.Lib.plain_matmul_zero_apply (M := 2048) (K := 512) (N := 512) v0
    (transpose S512x512 [1, 0] v2 transposes_S512x512_p1_0_S512x512) none p q).trans ?_
  exact Finset.sum_congr rfl fun k _ => congrArg (v0 (ix2 p k) * ·) (transpose_apply_kq v2 _ k q)

/-- A reciprocal root at an index is the reciprocal root of the element. -/
theorem rsqrt_apply {s : Shape} {φ : FTy} (a : FVec Ideal s φ) (i : s.Idx) : rsqrt a i = Ideal.rsqrt (a i) := rfl

/-- The body's stored tile at `(p, q)`. -/
theorem tile_apply (v0 : Vec Ideal S2048x512 .bf16) (v2 : Vec Ideal S512x512 .bf16) (v4 : Vec Ideal S2048x1 .f32)
    (v6 : Vec Ideal S1x512 .f32) (p : Fin 2048) (q : Fin 512) :
    k0_pay1 (F := Ideal) v0 v2 v4 v6 (ix2 p q)
      = min (Ideal.rsqrt (max ((v4 (ix2 p (0 : Fin 1)) + v6 (ix2 (0 : Fin 1) q))
            - Ideal.ofBits .f32 0x40000000#32 * ∑ k : Fin 512, v0 (ix2 p k) * v2 (ix2 q k))
          (Ideal.ofBits .f32 0x00000000#32))) (Ideal.ofBits .f32 0x49742400#32) := by
  unfold k0_pay1
  simp only [shapeCast_self]
  simp only [minimumf_apply, rsqrt_apply, maximumf_apply, subf_apply, addf_apply, mulf_apply, broadcast_apply,
    Ideal.ofBits_def]
  rw [Gcn.Lib.broadcastTo_a1_ab_apply v4 broadcasts_S2048x1_S2048x512 p q,
    DotRecord.broadcastTo_1b_ab_apply v6 broadcasts_S1x512_S2048x512 p q, product_apply v0 v2 p q]

/-- When the four blocks are what the table's entry `(P, Q)` is made of — rows `P` of `x` and `Q` of `y` at local rows `p`
    and `q`, and their squared lengths — the stored tile at `(p, q)` is that entry. -/
theorem tile_is_entry {n n' : ℕ} (x : (⟨2, ![n, 512]⟩ : Shape).Idx → EReal) (y : (⟨2, ![n', 512]⟩ : Shape).Idx → EReal)
    (v0 : Vec Ideal S2048x512 .bf16) (v2 : Vec Ideal S512x512 .bf16) (v4 : Vec Ideal S2048x1 .f32)
    (v6 : Vec Ideal S1x512 .f32) (p : Fin 2048) (q : Fin 512) (P : Fin n) (Q : Fin n')
    (hx : ∀ k : Fin 512, v0 (ix2 p k) = x (ix2 P k)) (hy : ∀ k : Fin 512, v2 (ix2 q k) = y (ix2 Q k))
    (hx2 : v4 (ix2 p (0 : Fin 1)) = Similarity.sqNorm x P) (hy2 : v6 (ix2 (0 : Fin 1) q) = Similarity.sqNorm y Q) :
    k0_pay1 (F := Ideal) v0 v2 v4 v6 (ix2 p q) = Similarity.sim x y P Q := by
  rw [tile_apply, hx2, hy2]
  unfold Similarity.sim Similarity.sqDist Similarity.inner
  simp only [hx, hy]

end Cert.KernelIdeal.Tile

end
-- ==== Proof.TableValue.lean ====
/-
  From tiles to the whole table: what the kernel's result array holds after the run.

  The grid has 2 × 16 points; point `(i, j)` works on rows `2048·i … 2048·i + 2047` of `x` and rows
  `512·j … 512·j + 511` of `y`, and writes back the tile of the table with those rows and columns. Before the grid the
  host forms what the tiles read: `x` and `y` themselves (a change of float format, the identity on extended reals), the
  column of squared row lengths of `x` and the row of squared row lengths of `y`. So a block of each window, read at a
  local index, is the corresponding array read at the global one (block index × block size + local index on every
  axis), the stored tile at `(p, q)` is the table's entry `(2048·i + p, 512·j + q)`, and since every entry of the
  table lies in exactly the tile with `i = row / 2048`, `j = column / 512`, the array ends as the table.
-/
import proofs.«160311_j49246095016270_2_alg».proof.Proof.Gen.KernelIdeal.Value
import proofs.«160311_j49246095016270_2_alg».proof.Proof.ReferenceEntry
import proofs.«160311_j49246095016270_2_alg».proof.Proof.TileEntry
import proofs.«160311_j49246095016270_2_alg».proof.Proof.Similarity
import Idealize.ShloMosaic.Lib.Pipeline.Value
import Idealize.ShloMosaic.Lib.StableHlo.Run
import Idealize.ShloMosaic.Lib.Tactic

noncomputable section

namespace Cert.KernelIdeal.Table

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The first argument as launched: `x`. -/
abbrev argX (c : Dev nD) : S4096x512.Idx → EReal := m ((c : Thread nD τ).loc main_arg0)
/-- The second argument as launched: `y`. -/
abbrev argY (c : Dev nD) : S8192x512.Idx → EReal := m ((c : Thread nD τ).loc main_arg1)

theorem hz : (![0, 0] : Fin 2 → Nat) = fun _ => 0 := funext fun a => by fin_cases a <;> rfl

/-! ## What the grid finds in the arrays its windows read -/

/-- The first window's array is `x`: the host only changed its float format. -/
theorem entry_x (c : Dev nD) : (V m c main_v7 : S4096x512.Idx → EReal) = argX m c := by
  dsimp only [V, hostOps0]; after_results; rfl

/-- The second window's array is `y`. -/
theorem entry_y (c : Dev nD) : (V m c main_v8 : S8192x512.Idx → EReal) = argY m c := by
  dsimp only [V, hostOps0]; after_results; rfl

/-- The third window's array is the column of squared row lengths of `x`, formed by the same host operations as the
    reference's. -/
theorem entry_x2 (c : Dev nD) :
    (V m c main_v2 : S4096x1.Idx → EReal) = Cert.ReferenceIdeal.Read.val_main_v2 (F := Ideal) (argX m c) := by
  dsimp only [V, hostOps0]; after_results; rfl

/-- The fourth window's array is the row of squared row lengths of `y`. -/
theorem entry_y2 (c : Dev nD) :
    (V m c main_v6 : S1x8192.Idx → EReal) = Cert.ReferenceIdeal.Read.val_main_v6 (F := Ideal) (argY m c) := by
  dsimp only [V, hostOps0]; after_results; rfl

/-! ## The index maps over the grid -/

/-- The printed index maps, decided over the 32 points: the blocks of `x` and of its squared lengths move with the
    tile's row block, those of `y` and of its squared lengths with the tile's column block, and the tile's block
    indices stay below 2 and 16. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 1 ∧ win0_4.index t (1 : Fin 2) ≤ 15 :=
  (by decide +kernel : ∀ t : Fin grid0.N, _)

/-- Every pair of a row block and a column block is some point's tile. -/
theorem block_onto : ∀ (b0 : Fin 2) (b1 : Fin 16), ∃ t : Fin cfg0.N, win0_4.index t = ![b0.val, b1.val] :=
  (by decide +kernel : ∀ (b0 : Fin 2) (b1 : Fin 16), ∃ t : Fin grid0.N, win0_4.index t = ![b0.val, b1.val])

/-! ## Each window's block at a local index is its array at the global one -/

/-- The block of `x` at point `t`, local row `p`: row `2048 · (row block) + p` of `x`. -/
theorem xblock_apply (c : Dev nD) (t : Fin cfg0.N) (p : Fin 2048) (k : Fin 512) (P : Fin 4096)
    (hP : P.val = win0_4.index t (0 : Fin 2) * 2048 + p.val) :
    (iblk m c 0 t : Vec Ideal S2048x512 .bf16) (ix2 p k) = argX m c (ix2 P k) := by
  obtain ⟨e0, e1, -⟩ := block_indices t
  unfold iblk
  rw [View.read_apply]
  show V m c main_v7 _ = _
  rw [entry_x]
  refine congrArg (argX m c) (funext fun a => Fin.ext ?_)
  match a with
  | ⟨0, _⟩ => show win0_0.index t (0 : Fin 2) * 2048 + 1 * p.val = P.val; rw [e0, hP]; omega
  | ⟨1, _⟩ => show win0_0.index t (1 : Fin 2) * 512 + 1 * k.val = k.val; rw [e1]; omega

/-- The block of `y` at point `t`, local row `q`: row `512 · (column block) + q` of `y`. -/
theorem yblock_apply (c : Dev nD) (t : Fin cfg0.N) (q : Fin 512) (k : Fin 512) (Q : Fin 8192)
    (hQ : Q.val = win0_4.index t (1 : Fin 2) * 512 + q.val) :
    (iblk m c 1 t : Vec Ideal S512x512 .bf16) (ix2 q k) = argY m c (ix2 Q k) := by
  obtain ⟨-, -, e0, e1, -⟩ := block_indices t
  unfold iblk
  rw [View.read_apply]
  show V m c main_v8 _ = _
  rw [entry_y]
  refine congrArg (argY m c) (funext fun a => Fin.ext ?_)
  match a with
  | ⟨0, _⟩ => show win0_1.index t (0 : Fin 2) * 512 + 1 * q.val = Q.val; rw [e0, hQ]; omega
  | ⟨1, _⟩ => show win0_1.index t (1 : Fin 2) * 512 + 1 * k.val = k.val; rw [e1]; omega

/-- The block of squared lengths of `x` at point `t`, local row `p`: the squared length of that row of `x`. -/
theorem x2block_apply (c : Dev nD) (t : Fin cfg0.N) (p : Fin 2048) (P : Fin 4096)
    (hP : P.val = win0_4.index t (0 : Fin 2) * 2048 + p.val) :
    (iblk m c 2 t : Vec Ideal S2048x1 .f32) (ix2 p (0 : Fin 1)) = Similarity.sqNorm (argX m c) P := by
  obtain ⟨-, -, -, -, e0, e1, -⟩ := block_indices t
  unfold iblk
  rw [View.read_apply]
  show V m c main_v2 _ = _
  rw [entry_x2, ← Cert.ReferenceIdeal.RefValue.sqNorm_col]
  refine congrArg (Cert.ReferenceIdeal.Read.val_main_v2 (F := Ideal) (argX m c)) (funext fun a => Fin.ext ?_)
  match a with
  | ⟨0, _⟩ => show win0_2.index t (0 : Fin 2) * 2048 + 1 * p.val = P.val; rw [e0, hP]; omega
  | ⟨1, _⟩ => show win0_2.index t (1 : Fin 2) * 1 + 1 * 0 = 0; rw [e1]

/-- The block of squared lengths of `y` at point `t`, local column `q`: the squared length of that row of `y`. -/
theorem y2block_apply (c : Dev nD) (t : Fin cfg0.N) (q : Fin 512) (Q : Fin 8192)
    (hQ : Q.val = win0_4.index t (1 : Fin 2) * 512 + q.val) :
    (iblk m c 3 t : Vec Ideal S1x512 .f32) (ix2 (0 : Fin 1) q) = Similarity.sqNorm (argY m c) Q := by
  obtain ⟨-, -, -, -, -, -, e0, e1, -⟩ := block_indices t
  unfold iblk
  rw [View.read_apply]
  show V m c main_v6 _ = _
  rw [entry_y2, ← Cert.ReferenceIdeal.RefValue.sqNorm_row]
  refine congrArg (Cert.ReferenceIdeal.Read.val_main_v6 (F := Ideal) (argY m c)) (funext fun a => Fin.ext ?_)
  match a with
  | ⟨0, _⟩ => show win0_3.index t (0 : Fin 2) * 1 + 1 * 0 = 0; rw [e0]
  | ⟨1, _⟩ => show win0_3.index t (1 : Fin 2) * 512 + 1 * q.val = Q.val; rw [e1, hQ]; omega

/-! ## What a point writes back -/

/-- The stored tile at point `t`, local index `j`, is the table's entry at the index the tile's block sends `j` to. -/
theorem tile_at (c : Dev nD) (t : Fin cfg0.N) (j : S2048x512.Idx) :
    k0_pay1 (F := Ideal) (iblk m c 0 t) (iblk m c 1 t) (iblk m c 2 t) (iblk m c 3 t) j
      = Similarity.table (argX m c) (argY m c) (((cfg0.win 4).blk t).view.emb j) := by
  obtain ⟨p, q, rfl⟩ : ∃ (p : Fin 2048) (q : Fin 512), j = ix2 p q := ⟨j 0, j 1, eq_ix2 j⟩
  obtain ⟨-, -, -, -, -, -, -, -, b0, b1⟩ := block_indices t
  have hp : p.val < 2048 := p.isLt
  have hq : q.val < 512 := q.isLt
  have hP : ((((cfg0.win 4).blk t).view.emb (ix2 p q)) 0).val = win0_4.index t (0 : Fin 2) * 2048 + p.val := by
    show win0_4.index t (0 : Fin 2) * 2048 + 1 * p.val = _; omega
  have hQ : ((((cfg0.win 4).blk t).view.emb (ix2 p q)) 1).val = win0_4.index t (1 : Fin 2) * 512 + q.val := by
    show win0_4.index t (1 : Fin 2) * 512 + 1 * q.val = _; omega
  show _ = Similarity.sim (argX m c) (argY m c) ((((cfg0.win 4).blk t).view.emb (ix2 p q)) 0) ((((cfg0.win 4).blk t).view.emb (ix2 p q)) 1)
  exact Tile.tile_is_entry (argX m c) (argY m c) (iblk m c 0 t) (iblk m c 1 t) (iblk m c 2 t) (iblk m c 3 t) p q _ _
    (fun k => xblock_apply m c t p k _ hP) (fun k => yblock_apply m c t q k _ hQ)
    (x2block_apply m c t p _ hP) (y2block_apply m c t q _ hQ)

/-- What point `t` writes back is its block of the table. -/
theorem flushed_eq (c : Dev nD) (t : Fin cfg0.N) :
    (dats m 0 c).flushed 4 t
      = ((cfg0.win 4).blk t).view.read (Elt Ideal) (Similarity.table (argX m c) (argY m c)) := by
  rw [flushed4]
  unfold out0_4
  rw [View.canon_unit_zero hz]
  simp only [View.ld_unit_zero (S := S2048x512) hz, View.ld_unit_zero (S := S512x512) hz,
    View.ld_unit_zero (S := S2048x1) hz, View.ld_unit_zero (S := S1x512) hz]
  funext j
  exact tile_at m c t j

/-! ## The tiles cover the table -/

/-- An index of the table is in point `t`'s tile iff each coordinate is in the tile's range on its axis. -/
theorem mem_tile (t : Fin cfg0.N) (i : S4096x8192.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v9).slice (win0_4.rect t)).set ↔ _
  rw [View.set_slice_whole, Rect.mem_set_unit]
  exact Iff.rfl

/-- Every entry lies in the tile of its row block `row / 2048` and column block `column / 512`. -/
theorem covered (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := block_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_tile]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-! ## The array after the run, and the run -/

/-- The result array ends as the table of similarities of the two arguments. -/
theorem final (c : Dev nD) : (dats m 0 c).arrAt 4 cfg0.N = Similarity.table (argX m c) (argY m c) :=
  (dats m 0 c).arrAt_eq_of_cover 4 (Similarity.table (argX m c) (argY m c)) (fun t _ => flushed_eq m c t) covered

/-- Every weakly fair execution of the kernel's program ends with the result array at the table and the arguments
    unchanged. -/
theorem run : θ_run defs (onTc (τ := τ) (main (F := Ideal))) ⟨m, fun _ => 0, ρ⟩ fun r => ∀ c : Dev nD,
      r.2.mem ((c : Thread nD τ).loc main_v9) = Similarity.table (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Table

end
-- ==== Proof.lean ====
/-
  The inverse-distance similarity kernel against its reference, on the extended reals.

  Both programs compute, for `x` of 4096 rows and `y` of 8192 rows of 512 coordinates, the table
      (p, q) ↦ min ( 1 / √( max( |x_p|² + |y_q|² − 2·⟨x_p, y_q⟩ , 0 ) ) , 10⁶ ).
  The reference does it in one piece on the host and writes the last step as `1` divided by the square root. The
  kernel forms the two families of squared lengths on the host, then sweeps a 2 × 16 grid of tiles; each tile
  multiplies a block of 2048 rows of `x` by the transpose of a block of 512 rows of `y` (the change to a narrower float
  format before it is the identity on extended reals), and writes the last step as a reciprocal square root.
  The two spellings agree on every non-negative extended real, zero and `+∞` included, and the argument is a maximum
  with zero; so the two tables are equal entry by entry for every input — the precondition is never used. Every
  tile's entry is the table's entry at block index × block size + local index, and the tiles cover the table.
  The idealization rewrote nothing, so there is nothing to preserve. The kernel's frames are the generated ones; the
  reference's frame is its generated run with the result forgotten.
-/
import proofs.«160311_j49246095016270_2_alg».proof.Defs
import proofs.«160311_j49246095016270_2_alg».proof.Proof.Gen.Kernel
import proofs.«160311_j49246095016270_2_alg».proof.Proof.Gen.Kernel.Skeleton
import proofs.«160311_j49246095016270_2_alg».proof.Proof.Gen.Kernel.Launch
import proofs.«160311_j49246095016270_2_alg».proof.Proof.Gen.Kernel.Points
import proofs.«160311_j49246095016270_2_alg».proof.Proof.Gen.Kernel.Frame
import proofs.«160311_j49246095016270_2_alg».proof.Proof.Gen.KernelIdeal
import proofs.«160311_j49246095016270_2_alg».proof.Proof.Gen.KernelIdeal.Skeleton
import proofs.«160311_j49246095016270_2_alg».proof.Proof.Gen.KernelIdeal.Launch
import proofs.«160311_j49246095016270_2_alg».proof.Proof.Gen.KernelIdeal.Points
import proofs.«160311_j49246095016270_2_alg».proof.Proof.Gen.KernelIdeal.Frame
import proofs.«160311_j49246095016270_2_alg».proof.Proof.Gen.ReferenceIdeal
import proofs.«160311_j49246095016270_2_alg».proof.Proof.Gen.Pre_finite_inputs
import proofs.«160311_j49246095016270_2_alg».proof.Proof.Gen.KernelIdeal.Value
import proofs.«160311_j49246095016270_2_alg».proof.Proof.Gen.ReferenceIdeal.Run
import proofs.«160311_j49246095016270_2_alg».proof.Proof.Gen.ReferenceIdeal.Read
import proofs.«160311_j49246095016270_2_alg».proof.Proof.ReferenceEntry
import proofs.«160311_j49246095016270_2_alg».proof.Proof.TableValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- From memories agreeing on `x` and `y`, both programs end with the first result `x` and the second the table of
    similarities of `x` and `y`: the kernel's array tile by tile, the reference's stage by stage. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Similarity.table (Cert.KernelIdeal.Table.argX m c) (Cert.KernelIdeal.Table.argY m c), ?_, ?_⟩
  · exact (θ_run Cert.KernelIdeal.defs _ _).mono (fun _ h c => ⟨(h c).2.1, (h c).1, (h c).2.1, (h c).2.2⟩)
      (Cert.KernelIdeal.Table.run m ρ)
  · refine (θ_run Cert.ReferenceIdeal.defs _ _).mono (fun _ h c => ⟨(h c).1.trans (hagree c).1, ?_, (h c).2.2.1, (h c).2.2.2⟩)
      (Cert.ReferenceIdeal.Value.run (F := Ideal) m' ρ')
    rw [(h c).2.1, Cert.ReferenceIdeal.Read.val_main_v21_eq, Cert.ReferenceIdeal.RefValue.result_eq,
      (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
